-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩
abbrev S1x1600000 : Shape := ⟨2, ![1, 1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x1600000_S1x1600000_0_0 : S2x1600000.Slices ![0, 0] S1x1600000
  shapeCasts_S1x1600000_S1600000 : S1x1600000.ShapeCasts S1600000

variable [Facts]

def fn_part1 {F : FTy → Type} [FloatOps F] (main_arg1 : IVec S2x1600000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : IVec S1x1600000 32 := (extractStridedSlice S1x1600000 ![0, 0] · slices_S2x1600000_S1x1600000_0_0) main_arg1
  let main_v20 : IVec S1600000 32 := shapeCast S1600000 main_v19 shapeCasts_S1x1600000_S1600000
  let main_c_6 : IVec S_ 32 := constantI S_ 32 0#32
  let main_v21 : IVec S1600000 32 := broadcastInDim S1600000 ![] bcast_S_S1600000 main_c_6
  let main_v22 : IVec S1600000 1 := cmpi .sge main_v20 main_v21
  let main_c_7 : IVec S_ 1 := constantI S_ 1 1#1
  let main_v23 : IVec S_ 1 := (fun x v => Host.reduce IntOp.andi x v reducesTo_S1600000_S_d0 h_S_) main_v22 main_c_7
  let main_v24 : IVec S_ 1 := andi main_v18 main_v23
  main_v24

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S5000x128 : Shape := ⟨2, ![5000, 128]⟩
abbrev S1x128 : Shape := ⟨2, ![1, 128]⟩

abbrev nBuf : Space → Nat
  | .hbm => 33
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x1, .f32⟩
  | .hbm, ⟨19, _⟩ => ⟨S1600000x128, .f32⟩
  | .hbm, ⟨20, _⟩ => ⟨S1600000x128, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S100000x128, .f32⟩
  | .hbm, ⟨30, _⟩ => ⟨S128x128, .f32⟩
  | .hbm, ⟨31, _⟩ => ⟨S128x128, .bf16⟩
  | .hbm, ⟨32, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S128, .f32⟩
  | .local _ .vmem, ⟨4, _⟩ => ⟨S5000x128, .f32⟩
  | .local _ .vmem, ⟨5, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_1_0 : S2x1600000.Slices ![1, 0] S1x1600000
  shapeCasts_S1x1600000_S1600000 : S1x1600000.ShapeCasts S1600000
  slices_S2x1600000_S1x1600000_0_0 : S2x1600000.Slices ![0, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  transposes_S128x128_S128x128_1_0 : S128x128.Transposes [1, 0] S128x128
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v20) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x1, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S100000x128, .f32⟩
  | .hbm, ⟨26, _⟩ => ⟨S128x128, .f32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S_, .f32⟩
  | .hbm, ⟨32, _⟩ => ⟨S_, .f32⟩
  | .hbm, ⟨33, _⟩ => ⟨S100000x128, .f32⟩
  | .hbm, ⟨34, _⟩ => ⟨S100000x128, .i1⟩
  | .hbm, ⟨35, _⟩ => ⟨S_, .f32⟩
  | .hbm, ⟨36, _⟩ => ⟨S100000x128, .f32⟩
  | .hbm, ⟨37, _⟩ => ⟨S100000x128, .f32⟩
  | .hbm, ⟨38, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v23 : Ref sig .tc := ⟨.hbm, 38, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  slices_S2x1600000_S1x1600000_0_0 : S2x1600000.Slices ![0, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RefRun.lean ====
/-
  The reference program as one straight line of host operations, and what its run leaves in the result array.

  The reference gathers the source rows of the node table, scales each by its edge weight, adds the scaled rows
  into an all-zero table at the destination rows, adds the node table to that, multiplies by the transposed
  weight matrix, adds the bias, and applies the leaky rectifier (the two outlined functions are written out at
  their call site).  The run below says: every weakly fair execution ends, the result array holding exactly
  that composition of the five argument arrays, and the argument arrays unchanged.
-/
import proofs.«102477_j19670950216024_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- Row 0 of the edge table: each edge's destination node. -/
def dst (a1 : IVec S2x1600000 32) : IVec S1600000 32 :=
  shapeCast S1600000 (extractStridedSlice S1x1600000 ![0, 0] a1 slices_S2x1600000_S1x1600000_0_0) shapeCasts_S1x1600000_S1600000

/-- Row 1 of the edge table: each edge's source node. -/
def src (a1 : IVec S2x1600000 32) : IVec S1600000 32 :=
  shapeCast S1600000 (extractStridedSlice S1x1600000 ![1, 0] a1 slices_S2x1600000_S1x1600000_1_0) shapeCasts_S1x1600000_S1600000

/-- A node number below zero counted from the end of the table (the table's height added), any other kept. -/
def wrap (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- One row per edge: the source node's row of the table times the edge's weight. -/
def messages (a0 : FVec F S100000x128 .f32) (a1 : IVec S2x1600000 32) (a2 : FVec F S1600000 .f32) : FVec F S1600000x128 .f32 :=
  mulf (Host.gather gather_S100000x128_S1600000x1_S1600000x128_1_0_n_n_0_1_1128 a0
      (broadcastInDim S1600000x1 ![0] bcast_S1600000_S1600000x1_0 (wrap (src a1))))
    (broadcastInDim S1600000x128 ![0, 1] bcast_S1600000x1_S1600000x128_0_1
      (broadcastInDim S1600000x1 ![0] bcast_S1600000_S1600000x1_0 a2))

/-- The node table plus, at each node, the sum of the messages of the edges arriving there (summed from zero). -/
def combined (a0 : FVec F S100000x128 .f32) (a1 : IVec S2x1600000 32) (a2 : FVec F S1600000 .f32) : FVec F S100000x128 .f32 :=
  addf a0 (Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (dst a1)) (messages a0 a1 a2))

/-- The linear layer before the rectifier: rows times the transposed weight matrix, plus the bias along each row. -/
def preact (x : FVec F S100000x128 .f32) (a3 : FVec F S128x128 .f32) (a4 : FVec F S128 .f32) : FVec F S100000x128 .f32 :=
  addf (Host.dotGeneral dot_S100000x128_S128x128_S100000x128_1_0_0_1_n_n none x (transpose S128x128 [1, 0] a3 transposes_S128x128_S128x128_1_0))
    (broadcastInDim S100000x128 ![0, 1] bcast_S1x128_S100000x128_0_1 (broadcastInDim S1x128 ![1] bcast_S128_S1x128_1 a4))

/-- The leaky rectifier as the reference spells it: the value where it is at least zero, the small slope times it elsewhere. -/
def rectified (h : FVec F S100000x128 .f32) : FVec F S100000x128 .f32 :=
  select (cmpf .oge h (broadcastInDim S100000x128 ![] bcast_S_S100000x128 (constant S_ .f32 0x00000000#32))) h
    (mulf (broadcastInDim S100000x128 ![] bcast_S_S100000x128 (id (constant S_ .f32 0x3C23D70A#32))) h)

/-- The whole reference as a function of its five arguments. -/
def result (a0 : FVec F S100000x128 .f32) (a1 : IVec S2x1600000 32) (a2 : FVec F S1600000 .f32) (a3 : FVec F S128x128 .f32)
    (a4 : FVec F S128 .f32) : FVec F S100000x128 .f32 :=
  rectified (preact (combined a0 a1 a2) a3 a4)

/-- The reference's 34 host operations, in order; the last seven are the rectifier's two outlined functions at their call. -/
abbrev ops : List (HloOp τ sig (Elt F)) :=
  [ unary main_arg1 main_v0 ((extractStridedSlice S1x1600000 ![1, 0] · slices_S2x1600000_S1x1600000_1_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![0, 0] · slices_S2x1600000_S1x1600000_0_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg2 main_v11 (broadcastInDim S1600000x1 ![0] bcast_S1600000_S1600000x1_0 : (⟨S1600000, .f32⟩ : BufTy).Contents (Elt F) → (⟨S1600000x1, .f32⟩ : BufTy).Contents (Elt F)),
    unary main_v11 main_v12 (broadcastInDim S1600000x128 ![0, 1] bcast_S1600000x1_S1600000x128_0_1 : (⟨S1600000x1, .f32⟩ : BufTy).Contents (Elt F) → (⟨S1600000x128, .f32⟩ : BufTy).Contents (Elt F)),
    binary main_v10 main_v12 main_v13 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v14 (broadcastInDim S100000x128 ![] bcast_S_S100000x128 : (⟨S_, .f32⟩ : BufTy).Contents (Elt F) → (⟨S100000x128, .f32⟩ : BufTy).Contents (Elt F)),
    unary main_v3 main_v15 (broadcastInDim S1600000x1 ![0] bcast_S1600000_S1600000x1_0 : (⟨S1600000, .i32⟩ : BufTy).Contents (Elt F) → (⟨S1600000x1, .i32⟩ : BufTy).Contents (Elt F)),
    ternary main_v14 main_v15 main_v13 main_v16 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_arg0 main_v16 main_v17 (addf : (⟨S100000x128, .f32⟩ : BufTy).Contents (Elt F) → (⟨S100000x128, .f32⟩ : BufTy).Contents (Elt F) → (⟨S100000x128, .f32⟩ : BufTy).Contents (Elt F)),
    unary main_arg3 main_v18 ((transpose S128x128 [1, 0] · transposes_S128x128_S128x128_1_0) : (⟨S128x128, .f32⟩ : BufTy).Contents (Elt F) → (⟨S128x128, .f32⟩ : BufTy).Contents (Elt F)),
    binary main_v17 main_v18 main_v19 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v20 (broadcastInDim S1x128 ![1] bcast_S128_S1x128_1 : (⟨S128, .f32⟩ : BufTy).Contents (Elt F) → (⟨S1x128, .f32⟩ : BufTy).Contents (Elt F)),
    unary main_v20 main_v21 (broadcastInDim S100000x128 ![0, 1] bcast_S1x128_S100000x128_0_1 : (⟨S1x128, .f32⟩ : BufTy).Contents (Elt F) → (⟨S100000x128, .f32⟩ : BufTy).Contents (Elt F)),
    binary main_v19 main_v21 main_v22 (addf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x3C23D70A#32),
    TRef.nullary main_call0.cst (constant S_ .f32 0x00000000#32),
    TRef.unary main_call0.cst main_call0.v0 (broadcastInDim S100000x128 ![] bcast_S_S100000x128),
    TRef.binary (.of main_v22) main_call0.v0 main_call0.v1 (cmpf .oge),
    TRef.unary (.of main_cst_1) main_call0.v2 id,
    TRef.unary main_call0.v2 main_call0.v3 (broadcastInDim S100000x128 ![] bcast_S_S100000x128),
    TRef.binary main_call0.v3 (.of main_v22) main_call0.v4 mulf,
    TRef.ternary main_call0.v1 (.of main_v22) main_call0.v4 main_call0.call0.v0 select ]

set_option maxRecDepth 2048 in
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

attribute [local irreducible] Host.gather Host.scatterAdd transpose in
set_option maxRecDepth 8192 in
set_option maxHeartbeats 800000 in
/-- The fold of the operations at the result buffer is the composition above of the argument buffers' contents. -/
theorem out_eq (V : Valuation τ sig (Elt F)) :
    after ops V (main_v23 : DevRef τ sig)
      = result (V (main_arg0 : DevRef τ sig)) (V (main_arg1 : DevRef τ sig)) (V (main_arg2 : DevRef τ sig))
          (V (main_arg3 : DevRef τ sig)) (V (main_arg4 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

/-- Every weakly fair execution of the reference ends with the result array at `result` of the argument arrays and
    the argument arrays as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23)
        = result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v23).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.ReferenceIdeal.HostRun

end
-- ==== Proof.Layer.lean ====
/-
  The dense layer both programs end with, as one function of a node table, a weight matrix and a bias, index by index
  on the extended reals: at row p and column q,

      leaky ( (∑ k, x (p, k) · w (k, q)) + b q ),

  where leaky h is h when h ≥ 0 and the small slope times h otherwise (the slope is the same 32-bit word in both
  programs, so it is never evaluated).  Also here: adding a table to the sums scattered into an all-zero table is
  scattering the sums into that table; and counting a node number from the end of the table changes nothing when
  the number is not negative.
-/
import Idealize.ShloMosaic.Lib.ValueIdx
import Idealize.ShloMosaic.Lib.Affine
import Idealize.ShloMosaic.PureOps.Ideal.Laws

noncomputable section

namespace Cert.GcnLayer

open Idealize.ShloMosaic Idealize.ShloMosaic.ValueIdx

/-- The leaky rectifier on the extended reals, in the spelling of both programs. -/
def leaky (h : EReal) : EReal :=
  Scalar.select (FloatOps.cmpf (F := Ideal) (φ := .f32) .oge h (Ideal.ofBits .f32 0x00000000#32)) h
    (Ideal.ofBits .f32 0x3C23D70A#32 * h)

/-- The dense layer at row `p`, column `q`. -/
def denseAt {M : ℕ} (x : (⟨2, ![M, 128]⟩ : Shape).Idx → EReal) (w : (⟨2, ![128, 128]⟩ : Shape).Idx → EReal)
    (b : (⟨1, ![128]⟩ : Shape).Idx → EReal) (p : Fin M) (q : Fin 128) : EReal :=
  leaky ((∑ k : Fin 128, x (ix2 p k) * w (ix2 k q)) + b (ix1 q))

/-- The dense layer over the whole node table. -/
def dense (x : (⟨2, ![100000, 128]⟩ : Shape).Idx → EReal) (w : (⟨2, ![128, 128]⟩ : Shape).Idx → EReal)
    (b : (⟨1, ![128]⟩ : Shape).Idx → EReal) : (⟨2, ![100000, 128]⟩ : Shape).Idx → EReal :=
  fun i => denseAt x w b (i 0) (i 1)

theorem dense_ix2 (x : (⟨2, ![100000, 128]⟩ : Shape).Idx → EReal) (w : (⟨2, ![128, 128]⟩ : Shape).Idx → EReal)
    (b : (⟨1, ![128]⟩ : Shape).Idx → EReal) (p : Fin 100000) (q : Fin 128) :
    dense x w b (ix2 p q) = denseAt x w b p q := rfl

/-- Sums scattered into an all-zero table and then added to a table `x` are the sums scattered into `x`: at every entry
    both are the entry of `x` plus the sum of the updates landing there. -/
theorem add_scatter_zero {s si su : Shape} (d : ScatterDims s si su) {w : ℕ} (x : FVec Ideal s .f32) (idx : IVec si w)
    (u : FVec Ideal su .f32) (z : FVec Ideal s .f32) (hz : ∀ i, z i = Ideal.ofBits .f32 0x00000000#32) :
    addf x (Host.scatterAdd d z idx u) = Host.scatterAdd d x idx u := by
  funext i
  show x i + (z i + _) = x i + _
  rw [hz i, Ideal.ofBits_zero_f32, zero_add]

/-- A node number that is not negative is left alone by "add the table's height if below zero". -/
theorem wrap_of_nonneg {s : Shape} (v z n : IVec s 32) (hz : ∀ e, z e = 0#32) (h : ∀ e, 0 ≤ (v e).toInt) :
    select (cmpi .slt v z) (addi v n) v = v := by
  funext e
  show Scalar.select (IntOp.cmpi .slt (v e) (z e)) _ _ = _
  unfold Scalar.select
  refine if_neg fun hc => ?_
  have h1 : (v e).toInt < (z e).toInt := IntOp.cmpi_slt.mp hc
  have h0 : (0#32 : BitVec 32).toInt = 0 := by decide
  rw [hz e, h0] at h1
  have := h e
  omega

end Cert.GcnLayer

end
-- ==== Proof.LibPlainProduct.lean ====
/-
  The plain matrix product at the exact extended reals, read at an index given by coordinates.
  For dimension numbers that contract the left operand's axis 1 with the right operand's axis 0 (no batch axes),
  the contraction sum of an `[M, K]` by `[K, N]` product at `(p, q)` is `∑ k, l (p, k) * r (k, q)` over the `K`
  coordinates of the shared axis — for the matrix unit's product into a zero accumulator and for the host's
  `dot_general` alike. General in the three extents and in the operands' formats.
-/
import Idealize.ShloMosaic.Lib.ValueIdx
import Idealize.ShloMosaic.PureOps.Ideal.Laws

namespace Idealize.ShloMosaic.ValueIdx

open Idealize.ShloMosaic

/-- The left operand's row coordinate of a plain product is the result's row, whatever the contraction index. -/
theorem plain_lhsIdx_row {M K N : ℕ} (wf) (j : (⟨2, ![M, N]⟩ : Shape).Idx)
    (k : (⟨[1], [0], [0], [1], [], [], wf⟩ : DotDims ⟨2, ![M, K]⟩ ⟨2, ![K, N]⟩ ⟨2, ![M, N]⟩).contr.Idx) :
    ((⟨[1], [0], [0], [1], [], [], wf⟩ : DotDims ⟨2, ![M, K]⟩ ⟨2, ![K, N]⟩ ⟨2, ![M, N]⟩).lhsIdx j k 0).val = (j 0).val := by
  unfold DotDims.lhsIdx
  rw [dif_neg List.not_mem_nil, dif_pos (List.mem_singleton.mpr rfl)]
  rfl

/-- The right operand's column coordinate of a plain product is the result's column, whatever the contraction index. -/
theorem plain_rhsIdx_col {M K N : ℕ} (wf) (j : (⟨2, ![M, N]⟩ : Shape).Idx)
    (k : (⟨[1], [0], [0], [1], [], [], wf⟩ : DotDims ⟨2, ![M, K]⟩ ⟨2, ![K, N]⟩ ⟨2, ![M, N]⟩).contr.Idx) :
    ((⟨[1], [0], [0], [1], [], [], wf⟩ : DotDims ⟨2, ![M, K]⟩ ⟨2, ![K, N]⟩ ⟨2, ![M, N]⟩).rhsIdx j k 1).val = (j 1).val := by
  unfold DotDims.rhsIdx
  rw [dif_neg List.not_mem_nil, dif_pos (List.mem_singleton.mpr rfl)]
  rfl

/-- The contraction sum of a plain product, re-indexed by the shared axis's coordinate. -/
theorem plain_contr_sum {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 p q)
      ((contrEquiv1 (⟨[1], [0], [0], [1], [], [], wf⟩ : DotDims ⟨2, ![M, K]⟩ ⟨2, ![K, N]⟩ ⟨2, ![M, N]⟩) K rfl rfl).symm k) = ix2 p k :=
    funext fun a => Fin.ext (by
      match a with
      | ⟨0, _⟩ => exact plain_lhsIdx_row wf _ _
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 p q)
      ((contrEquiv1 (⟨[1], [0], [0], [1], [], [], wf⟩ : DotDims ⟨2, ![M, K]⟩ ⟨2, ![K, N]⟩ ⟨2, ![M, N]⟩) K rfl rfl).symm k) = ix2 k q :=
    funext fun a => Fin.ext (by
      match a with
      | ⟨0, _⟩ => exact (DotDims.rhsIdx_val_of_single _ rfl _ _).trans hk
      | ⟨1, _⟩ => exact plain_rhsIdx_col wf _ _)
  rw [el, er]

/-- The matrix unit's plain product into a zero accumulator, at `(p, q)`. -/
theorem matmul_zero_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  rw [Ideal.matmul_constant_zero_apply]
  exact plain_contr_sum d hlc hrc hln hrn hlb hrb l r p q

/-- The host's plain `dot_general`, at `(p, q)`. -/
theorem dotGeneral_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  rw [Ideal.dotGeneral_apply]
  exact plain_contr_sum d hlc hrc hln hrn hlb hrb l r p q

end Idealize.ShloMosaic.ValueIdx
-- ==== Proof.KernelValue.lean ====
/-
  What the kernel leaves in its result array, on the extended reals: the dense layer of the three arrays its windows read.

  Grid point t loads rows 5000·t … 5000·t + 4999 of the node table (all 128 columns), the whole 128 × 128 weight
  array and the whole bias; it multiplies the rows by the weights (rounding to the narrower format is the identity on
  the extended reals, and the accumulator starts at zero), adds the bias along each row, applies the leaky rectifier,
  and stores the 5000 × 128 result as rows 5000·t … of the result array.  So entry (5000·t + p, q) of the result
  is the dense layer at that row and column of the whole node table; the twenty blocks cover every row.
-/
import proofs.«102477_j19670950216024_2_alg».proof.Proof.Gen.KernelIdeal.Value
import proofs.«102477_j19670950216024_2_alg».proof.Proof.Layer
import proofs.«102477_j19670950216024_2_alg».proof.Proof.LibPlainProduct
import Idealize.ShloMosaic.Lib.ValueLayout
import Idealize.ShloMosaic.Lib.Pipeline.Value

noncomputable section

namespace Cert.KernelIdeal.DenseValue

open Cert.KernelIdeal Cert.KernelIdeal.Gen Cert.KernelIdeal.Value Idealize.ShloMosaic Idealize.ShloMosaic.TcCoe Idealize.SL.Sem
open Idealize.ShloMosaic.ValueIdx Cert.GcnLayer
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The body's linear part at (p, q) of the block: the row's product with the weights plus the bias of column q. -/
theorem lin_apply (x0 : FVec Ideal S5000x128 .f32) (x1 : FVec Ideal S128x128 .bf16) (x2 : FVec Ideal S128 .f32)
    (p : Fin 5000) (q : Fin 128) :
    addf (matmul dot_S5000x128_S128x128_S5000x128_1_0_0_1_n_n none
          (truncf .bf16 (shapeCast S5000x128 x0 shapeCasts_S5000x128_S5000x128) bitsLt_bf16_f32)
          (shapeCast S128x128 x1 shapeCasts_S128x128_S128x128) (constant S5000x128 .f32 0x00000000#32))
        (broadcastTo S5000x128 (shapeCast S1x128 x2 shapeCasts_S128_S1x128) broadcasts_S1x128_S5000x128) (ix2 p q)
      = (∑ k : Fin 128, x0 (ix2 p k) * x1 (ix2 k q)) + x2 (ix1 q) := by
  rw [shapeCast_self, shapeCast_self, addf_apply, broadcastTo_1b_ab_apply, shapeCast_a_1a_apply]
  refine congrArg (· + x2 (ix1 q)) ?_
  exact matmul_zero_plain_apply _ rfl rfl rfl rfl rfl rfl none _ _ p q

/-- The body's stored value at (p, q) of the block is the dense layer of the three loaded blocks there. -/
theorem pay_apply (x0 : Vec Ideal S5000x128 .f32) (x1 : Vec Ideal S128x128 .bf16) (x2 : Vec Ideal S128 .f32)
    (p : Fin 5000) (q : Fin 128) :
    k0_pay1 x0 x1 x2 (ix2 p q) = denseAt (M := 5000) x0 x1 x2 p q := by
  unfold k0_pay1
  show Scalar.select (FloatOps.cmpf .oge (addf _ _ (ix2 p q)) (Ideal.ofBits .f32 0x00000000#32)) (addf _ _ (ix2 p q))
      (Ideal.ofBits .f32 0x3C23D70A#32 * addf _ _ (ix2 p q)) = _
  rw [lin_apply]
  rfl

/-! ## From the twenty blocks to the whole array -/

/-- The windows' block numbers at each grid point: the node table's and the result's row blocks move together,
    everything else stays at block 0, and there are twenty row blocks. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 ∧ win0_3.index t (0 : Fin 2) ≤ 19 :=
  (by decide +kernel : ∀ t : Fin grid0.N, _)

/-- Every one of the twenty row blocks is some grid point's. -/
theorem idx_onto : ∀ q0 : Fin 20, ∃ t : Fin cfg0.N, win0_3.index t = ![q0.val, 0] :=
  (by decide +kernel : ∀ q0 : Fin 20, ∃ t : Fin grid0.N, win0_3.index t = ![q0.val, 0])

/-- A block's dense layer is the table's: when a 5000-row block `x0` is rows `r·5000 …` of the table `X`, and the weight
    and bias blocks are the whole arrays, the body's stored value at `j` of the block is the dense layer of the table at
    the entry `i` that sits `r·5000` rows below `j`. -/
theorem block_dense (X : S100000x128.Idx → EReal) (W : S128x128.Idx → EReal) (B : S128.Idx → EReal)
    (x0 : Vec Ideal S5000x128 .f32) (x1 : Vec Ideal S128x128 .bf16) (x2 : Vec Ideal S128 .f32) (r : ℕ)
    (h0 : ∀ (p : Fin 5000) (k : Fin 128) (i : S100000x128.Idx), (i 0).val = r * 5000 + p.val → (i 1).val = k.val →
      x0 (ix2 p k) = X i)
    (h1 : ∀ (k q : Fin 128), x1 (ix2 k q) = W (ix2 k q)) (h2 : ∀ q : Fin 128, x2 (ix1 q) = B (ix1 q))
    (j : S5000x128.Idx) (i : S100000x128.Idx) (hi0 : (i 0).val = r * 5000 + (j 0).val) (hi1 : (i 1).val = (j 1).val) :
    k0_pay1 (F := Ideal) x0 x1 x2 j = dense X W B i := by
  obtain ⟨p, q, rfl⟩ : ∃ (p : Fin 5000) (q : Fin 128), j = ix2 p q := ⟨j 0, j 1, eq_ix2 j⟩
  obtain ⟨p', q', rfl⟩ : ∃ (p' : Fin 100000) (q' : Fin 128), i = ix2 p' q' := ⟨i 0, i 1, eq_ix2 i⟩
  have hq : q' = q := Fin.ext hi1
  subst hq
  refine (pay_apply x0 x1 x2 p q').trans ?_
  rw [dense_ix2]
  unfold denseAt
  exact congrArg leaky (congrArg₂ (· + ·)
    (Finset.sum_congr rfl fun k _ => congrArg₂ (· * ·) (h0 p k (ix2 p' k) hi0 rfl) (h1 k q')) (h2 q'))

/-- Block t of the node table is its rows `5000·(block number) …`: the block's entry (p, k) is the table's entry `i` at that
    row and column k. -/
theorem block_rows (c : Dev nD) (t : Fin cfg0.N) (p : Fin 5000) (k : Fin 128) (i : S100000x128.Idx)
    (hi0 : (i 0).val = win0_3.index t (0 : Fin 2) * 5000 + p.val) (hi1 : (i 1).val = k.val) :
    (iblk m c 0 t : S5000x128.Idx → EReal) (ix2 p k) = V m c main_v20 i := by
  obtain ⟨e0, e1, e2, e3, e4, e5, e6⟩ := idx_facts t
  show V m c main_v20 (((cfg0.win 0).blk t).view.emb (ix2 p k)) = V m c main_v20 i
  refine congrArg (V m c main_v20) (funext fun a => Fin.ext ?_)
  match a with
  | ⟨0, _⟩ => show win0_0.index t (0 : Fin 2) * 5000 + 1 * p.val = (i 0).val; omega
  | ⟨1, _⟩ => show win0_0.index t (1 : Fin 2) * 128 + 1 * k.val = (i 1).val; omega

/-- The weight window's block is the whole weight array at every grid point. -/
theorem block_weights (c : Dev nD) (t : Fin cfg0.N) (k q : Fin 128) :
    (iblk m c 1 t : S128x128.Idx → EReal) (ix2 k q) = V m c main_v22 (ix2 k q) := by
  obtain ⟨e0, e1, e2, e3, e4, e5, e6⟩ := idx_facts t
  show V m c main_v22 (((cfg0.win 1).blk t).view.emb (ix2 k q)) = V m c main_v22 (ix2 k q)
  refine congrArg (V m c main_v22) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The bias window's block is the whole bias at every grid point. -/
theorem block_bias (c : Dev nD) (t : Fin cfg0.N) (q : Fin 128) :
    (iblk m c 2 t : S128.Idx → EReal) (ix1 q) = V m c main_arg4 (ix1 q) := by
  obtain ⟨e0, e1, e2, e3, e4, e5, e6⟩ := idx_facts t
  show V m c main_arg4 (((cfg0.win 2).blk t).view.emb (ix1 q)) = V m c main_arg4 (ix1 q)
  refine congrArg (V m c main_arg4) (funext fun a => Fin.ext ?_)
  match a with
  | ⟨0, _⟩ => show win0_2.index t (0 : Fin 1) * 128 + 1 * q.val = q.val; omega

/-- What grid point t writes back is the body's stored value of the three blocks at t. -/
theorem flushed_pay (c : Dev nD) (t : Fin cfg0.N) :
    (dats m 0 c).flushed 3 t
      = (cfg0.win 3).cut (grid0.coords t) (k0_pay1 (iblk m c 0 t) (iblk m c 1 t) (iblk m c 2 t)) := by
  rw [flushed3]
  unfold out0_3
  rw [View.canon_unit_zero hz2]
  simp only [View.ld_unit_zero (S := S5000x128) hz2, View.ld_unit_zero (S := S128x128) hz2, View.ld_unit_zero (S := S128) hz1]

/-- The body's stored value at entry y of point t's block is the dense layer of the whole arrays at the entry of the
    result array where y sits. -/
theorem pay_at_emb (c : Dev nD) (t : Fin cfg0.N) (y : ((cfg0.win 3).xblock (grid0.coords t)).Idx) :
    k0_pay1 (iblk m c 0 t) (iblk m c 1 t) (iblk m c 2 t) ((win0 3).xinj (grid0.coords t) y)
      = dense (V m c main_v20) (V m c main_v22) (V m c main_arg4) (((cfg0.win 3).blk t).view.emb y) := by
  obtain ⟨e0, e1, e2, e3, e4, e5, e6⟩ := idx_facts t
  refine block_dense (V m c main_v20) (V m c main_v22) (V m c main_arg4) (iblk m c 0 t) (iblk m c 1 t) (iblk m c 2 t)
    (win0_3.index t (0 : Fin 2)) (block_rows m c t) (block_weights m c t) (block_bias m c t)
    ((win0 3).xinj (grid0.coords t) y) (((cfg0.win 3).blk t).view.emb y) ?_ ?_
  · show win0_3.index t (0 : Fin 2) * 5000 + 1 * (y 0).val = win0_3.index t (0 : Fin 2) * 5000 + (y 0).val
    omega
  · show win0_3.index t (1 : Fin 2) * 128 + 1 * (y 1).val = (y 1).val
    omega

/-- What grid point t writes back is block t of the dense layer of the three arrays as the kernel finds them. -/
theorem flushed_eq (c : Dev nD) (t : Fin cfg0.N) :
    (dats m 0 c).flushed 3 t
      = ((cfg0.win 3).blk t).view.read (Elt Ideal) (dense (V m c main_v20) (V m c main_v22) (V m c main_arg4)) := by
  rw [flushed_pay]
  funext y
  exact pay_at_emb m c t y

/-- An index of the result array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v23).slice (win0_3.rect t)).set ↔ _
  rw [View.set_slice_whole, Rect.mem_set_unit]
  exact Iff.rfl

/-- Every entry of the result array lies in some grid point's block: row r is in block r / 5000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the run the result array is the dense layer of the three arrays as the kernel finds them. -/
theorem final (c : Dev nD) :
    (dats m 0 c).arrAt 3 cfg0.N = dense (V m c main_v20) (V m c main_v22) (V m c main_arg4) :=
  (dats m 0 c).arrAt_eq_of_cover 3 _ (fun t _ => flushed_eq m c t) cover

end Cert.KernelIdeal.DenseValue

end
-- ==== Proof.KernelHost.lean ====
/-
  The two arrays the host prepares before the kernel starts, as functions of the arguments.

  The node table the kernel reads is the argument table with, at each node, the sum of the messages of the edges
  arriving there scattered into it (the destination node numbers first counted from the table's end when below
  zero); the weight array it reads is the transposed weight matrix in the narrower format.
-/
import proofs.«102477_j19670950216024_2_alg».proof.Proof.Gen.KernelIdeal.Frame
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem Idealize.ShloMosaic.StableHlo

variable {F : FTy → Type} [FloatOps F]

/-- Row 0 of the edge table: each edge's destination node. -/
def dst (a1 : IVec S2x1600000 32) : IVec S1600000 32 :=
  shapeCast S1600000 (extractStridedSlice S1x1600000 ![0, 0] a1 slices_S2x1600000_S1x1600000_0_0) shapeCasts_S1x1600000_S1600000

/-- Row 1 of the edge table: each edge's source node. -/
def src (a1 : IVec S2x1600000 32) : IVec S1600000 32 :=
  shapeCast S1600000 (extractStridedSlice S1x1600000 ![1, 0] a1 slices_S2x1600000_S1x1600000_1_0) shapeCasts_S1x1600000_S1600000

/-- A node number below zero counted from the end of the table (the table's height added), any other kept. -/
def wrap (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- One row per edge: the source node's row of the table times the edge's weight. -/
def messages (a0 : FVec F S100000x128 .f32) (a1 : IVec S2x1600000 32) (a2 : FVec F S1600000 .f32) : FVec F S1600000x128 .f32 :=
  mulf (Host.gather gather_S100000x128_S1600000x1_S1600000x128_1_0_n_n_0_1_1128 a0
      (broadcastInDim S1600000x1 ![0] bcast_S1600000_S1600000x1_0 (wrap (src a1))))
    (broadcastInDim S1600000x128 ![0, 1] bcast_S1600000x1_S1600000x128_0_1
      (broadcastInDim S1600000x1 ![0] bcast_S1600000_S1600000x1_0 a2))

/-- The node table with the messages scattered into it at the (wrapped) destination rows. -/
def combined (a0 : FVec F S100000x128 .f32) (a1 : IVec S2x1600000 32) (a2 : FVec F S1600000 .f32) : FVec F S100000x128 .f32 :=
  Host.scatterAdd scatter_S100000x128_S1600000x1_S1600000x128_1_0_0_1 a0
    (broadcastInDim S1600000x1 ![0] bcast_S1600000_S1600000x1_0 (wrap (dst a1))) (messages a0 a1 a2)

/-- The transposed weight matrix in the narrower format. -/
def weights (a3 : FVec F S128x128 .f32) : FVec F S128x128 .bf16 :=
  truncf .bf16 (transpose S128x128 [1, 0] a3 transposes_S128x128_S128x128_1_0) bitsLt_bf16_f32

variable (m : (ℓ : Loc nD τ sig) → Buf (Elt F) ℓ)

attribute [local irreducible] Host.gather Host.scatterAdd transpose in
set_option maxRecDepth 8192 in
set_option maxHeartbeats 800000 in
/-- The node table as the kernel finds it. -/
theorem V_main_v20 (c : Dev nD) :
    (V m c main_v20 : S100000x128.Idx → F .f32)
      = combined (m ((c : Thread nD τ).loc main_arg0)) (m ((c : Thread nD τ).loc main_arg1)) (m ((c : Thread nD τ).loc main_arg2)) := by
  dsimp only [Gen.V, Gen.hostOps0]
  after_results_simp
  rfl

attribute [local irreducible] Host.gather Host.scatterAdd transpose in
set_option maxRecDepth 8192 in
set_option maxHeartbeats 800000 in
/-- The weight array as the kernel finds it. -/
theorem V_main_v22 (c : Dev nD) :
    (V m c main_v22 : S128x128.Idx → F .bf16) = weights (m ((c : Thread nD τ).loc main_arg3)) := by
  dsimp only [Gen.V, Gen.hostOps0]
  after_results_simp
  rfl

end Cert.KernelIdeal.HostPrefix

end
-- ==== Proof.KernelResult.lean ====
/-
  The kernel's run, read: the result array ends holding the dense layer of the node table with the messages scattered
  into it, the transposed weights and the bias — each a function of the argument arrays as launched.
-/
import proofs.«102477_j19670950216024_2_alg».proof.Proof.KernelValue
import proofs.«102477_j19670950216024_2_alg».proof.Proof.KernelHost

noncomputable section

namespace Cert.KernelIdeal.Result

open Cert.KernelIdeal Cert.KernelIdeal.Gen Cert.KernelIdeal.Value Cert.KernelIdeal.DenseValue Cert.KernelIdeal.HostPrefix
open Idealize.ShloMosaic Idealize.ShloMosaic.TcCoe Idealize.SL.Sem Cert.GcnLayer

variable (m : (ℓ : Loc nD τ sig) → Buf (Elt Ideal) ℓ) (ρ : Dev nD → PrngReg)

/-- The result array after the run, as a function of the arguments as launched. -/
theorem final_args (c : Dev nD) :
    (dats m 0 c).arrAt 3 cfg0.N
      = dense (combined (F := Ideal) (m ((c : Thread nD τ).loc main_arg0)) (m ((c : Thread nD τ).loc main_arg1)) (m ((c : Thread nD τ).loc main_arg2)))
          (weights (F := Ideal) (m ((c : Thread nD τ).loc main_arg3))) (m ((c : Thread nD τ).loc main_arg4)) := by
  rw [final, V_main_v20, V_main_v22, V_main_arg4]

/-- Every weakly fair execution of the kernel's program ends with the result array at that function and the argument
    arrays as they were. -/
theorem run : θ_run defs (onTc (τ := τ) (main (F := Ideal))) ⟨m, fun _ => 0, ρ⟩ fun r => ∀ c : Dev nD,
      r.2.mem ((c : Thread nD τ).loc main_v23)
        = dense (combined (F := Ideal) (m ((c : Thread nD τ).loc main_arg0)) (m ((c : Thread nD τ).loc main_arg1)) (m ((c : Thread nD τ).loc main_arg2)))
            (weights (F := Ideal) (m ((c : Thread nD τ).loc main_arg3))) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_args m c), (h c).2⟩) (run_blocks m ρ)

end Cert.KernelIdeal.Result

end
-- ==== Proof.LibHostColumn.lean ====
/-
  Host-side row and column forms of the layout operations, read at an index given by its coordinates.

  A vector of length b becomes the one-row array [1, b] (the vector laid along axis 1); the one-row array is
  repeated down a rows to [a, b]; and a column [a, 1] is re-laid as the vector of length a. Each lemma reads the
  result at its coordinates: the row forms keep the column coordinate, the column form keeps the row coordinate.
-/
import Idealize.ShloMosaic.Lib.Pipeline.Value
import Idealize.ShloMosaic.Lib.ValueIdx

noncomputable section

namespace Cert.LibHostColumn

open Idealize.ShloMosaic Idealize.ShloMosaic.ValueIdx

variable {α : Type}

/-- A vector of length b laid along axis 1 of [1, b]: the entry at (z, c) is the vector's entry c. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (z : Fin 1) (c : Fin b) :
    broadcastInDim ⟨2, ![1, b]⟩ (![1] : Fin 1 → Fin 2) h x (ix2 z c) = x (ix1 c) := by
  refine broadcastInDim_apply _ h x (ix2 z c) (ix1 c) fun ax => ?_
  match ax with
  | ⟨0, _⟩ =>
    show c.val = if b = 1 then 0 else c.val
    split
    · have := c.isLt; omega
    · rfl

/-- A one-row array [1, b] repeated down a rows (axes kept in place): the entry at (p, c) is the row's entry c. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A column [a, 1] re-laid as the vector of length a: the entry i is the column's entry of row i (the
    row-major position of (i, 0) in [a, 1] is i * 1 + 0 = i). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibHostColumn

end
-- ==== Proof.RefValue.lean ====
/-
  The reference's result, read index by index on the extended reals, is the dense layer of its combined node table:
  at row p and column q the host's matrix product is the sum over k of the row's entries times the transposed
  weights' column, the bias is laid along every row, and the rectifier is applied entry by entry.
-/
import proofs.«102477_j19670950216024_2_alg».proof.Proof.RefRun
import proofs.«102477_j19670950216024_2_alg».proof.Proof.Layer
import proofs.«102477_j19670950216024_2_alg».proof.Proof.LibPlainProduct
import proofs.«102477_j19670950216024_2_alg».proof.Proof.LibHostColumn

noncomputable section

namespace Cert.ReferenceIdeal.HostValue

open Cert.ReferenceIdeal Cert.ReferenceIdeal.Gen Cert.ReferenceIdeal.HostRun Idealize.ShloMosaic Idealize.ShloMosaic.ValueIdx Cert.GcnLayer

/-- The linear layer at (p, q): the row's product with the transposed weights, plus the bias of column q. -/
theorem preact_apply (x : FVec Ideal S100000x128 .f32) (a3 : FVec Ideal S128x128 .f32) (a4 : FVec Ideal S128 .f32)
    (p : Fin 100000) (q : Fin 128) :
    preact x a3 a4 (ix2 p q)
      = (∑ k : Fin 128, x (ix2 p k) * (transpose S128x128 [1, 0] a3 transposes_S128x128_S128x128_1_0) (ix2 k q)) + a4 (ix1 q) := by
  unfold preact
  rw [addf_apply, Cert.LibHostColumn.broadcastInDim_1b_ab_apply, Cert.LibHostColumn.broadcastInDim_b_1b_apply]
  refine congrArg (· + a4 (ix1 q)) ?_
  exact dotGeneral_plain_apply _ rfl rfl rfl rfl rfl rfl none _ x _ p q

/-- The reference's result is the dense layer of the combined table, the transposed weights and the bias. -/
theorem result_eq_dense (a0 : FVec Ideal S100000x128 .f32) (a1 : IVec S2x1600000 32) (a2 : FVec Ideal S1600000 .f32)
    (a3 : FVec Ideal S128x128 .f32) (a4 : FVec Ideal S128 .f32) :
    result a0 a1 a2 a3 a4 = dense (combined a0 a1 a2) (transpose S128x128 [1, 0] a3 transposes_S128x128_S128x128_1_0) a4 := by
  funext i
  obtain ⟨p, q, rfl⟩ : ∃ (p : Fin 100000) (q : Fin 128), i = ix2 p q := ⟨i 0, i 1, eq_ix2 i⟩
  rw [dense_ix2]
  unfold result
  generalize combined a0 a1 a2 = x
  show Scalar.select (FloatOps.cmpf .oge (preact x a3 a4 (ix2 p q)) (Ideal.ofBits .f32 0x00000000#32)) (preact x a3 a4 (ix2 p q))
      (Ideal.ofBits .f32 0x3C23D70A#32 * preact x a3 a4 (ix2 p q)) = _
  rw [preact_apply]
  rfl

end Cert.ReferenceIdeal.HostValue

end
-- ==== Proof.Aggregate.lean ====
/-
  The kernel's dense layer and the reference's are one function of the arguments when no destination node number is
  negative.

  The reference adds the node table to the messages summed (from zero) at each destination; the kernel scatters the
  messages into the node table itself, after counting a negative destination from the table's end.  On the extended
  reals "table + (0 + sum)" and "table + sum" are the same entry by entry, and a destination that is not negative is
  not re-counted; the messages are the same term on both sides.  The weights the kernel multiplies by are the
  transposed weight matrix (the change of format is the identity).
-/
import proofs.«102477_j19670950216024_2_alg».proof.Proof.RefValue
import proofs.«102477_j19670950216024_2_alg».proof.Proof.KernelHost
import proofs.«102477_j19670950216024_2_alg».proof.Proof.Layer

noncomputable section

namespace Cert.Aggregate

open Idealize.ShloMosaic Cert.GcnLayer

/-- The node table the kernel reads is the reference's combined table. -/
theorem combined_eq (a0 : FVec Ideal Cert.KernelIdeal.S100000x128 .f32) (a1 : IVec Cert.KernelIdeal.S2x1600000 32)
    (a2 : FVec Ideal Cert.KernelIdeal.S1600000 .f32) (h : ∀ e, 0 ≤ (Cert.KernelIdeal.HostPrefix.dst a1 e).toInt) :
    Cert.KernelIdeal.HostPrefix.combined a0 a1 a2 = Cert.ReferenceIdeal.HostRun.combined a0 a1 a2 := by
  have hw : Cert.KernelIdeal.HostPrefix.wrap (Cert.KernelIdeal.HostPrefix.dst a1) = Cert.KernelIdeal.HostPrefix.dst a1 := by
    unfold Cert.KernelIdeal.HostPrefix.wrap
    exact wrap_of_nonneg _ _ _ (fun _ => rfl) h
  unfold Cert.KernelIdeal.HostPrefix.combined Cert.ReferenceIdeal.HostRun.combined
  rw [hw]
  exact Eq.trans (by rfl) (add_scatter_zero _ a0 _ _ _ (fun _ => rfl)).symm

/-- The weight array the kernel reads is the transposed weight matrix. -/
theorem weights_eq (a3 : FVec Ideal Cert.KernelIdeal.S128x128 .f32) :
    Cert.KernelIdeal.HostPrefix.weights a3
      = transpose Cert.ReferenceIdeal.S128x128 [1, 0] a3 Cert.ReferenceIdeal.Facts₀.transposes_S128x128_S128x128_1_0 := rfl

/-- The dense layer of what the kernel reads is the reference's result. -/
theorem dense_eq_result (a0 : FVec Ideal Cert.KernelIdeal.S100000x128 .f32) (a1 : IVec Cert.KernelIdeal.S2x1600000 32)
    (a2 : FVec Ideal Cert.KernelIdeal.S1600000 .f32) (a3 : FVec Ideal Cert.KernelIdeal.S128x128 .f32)
    (a4 : FVec Ideal Cert.KernelIdeal.S128 .f32) (h : ∀ e, 0 ≤ (Cert.KernelIdeal.HostPrefix.dst a1 e).toInt) :
    dense (Cert.KernelIdeal.HostPrefix.combined a0 a1 a2) (Cert.KernelIdeal.HostPrefix.weights a3) a4
      = Cert.ReferenceIdeal.HostRun.result a0 a1 a2 a3 a4 := by
  rw [Cert.ReferenceIdeal.HostValue.result_eq_dense, combined_eq a0 a1 a2 h, weights_eq]

end Cert.Aggregate

end
-- ==== Proof.PreDecode.lean ====
/-
  What the precondition says about the edge table: every destination node number (row 0 of the table) is at least zero.

  The precondition is a conjunction of "all" tests; its last conjunct tests `edge_index[0] ≥ 0` entry by entry, and an
  "all" that comes out true was true at every entry.
-/
import proofs.«102477_j19670950216024_2_alg».proof.Proof.Gen.Pre_finite_inputs
import Idealize.ShloMosaic.Lib.ReduceAll
import Idealize.ShloMosaic.Lib.Affine
import Idealize.ShloMosaic.Lib.ValueIdx

noncomputable section

namespace Cert.Pre_finite_inputs.Decode

open Cert.Pre_finite_inputs Cert.Pre_finite_inputs.Gen Idealize.ShloMosaic

instance : Subsingleton S_.Idx := ⟨fun a b => funext fun d => d.elim0⟩

/-- Row 0 of the edge table, as the precondition reads it. -/
def dst (a1 : IVec S2x1600000 32) : IVec S1600000 32 :=
  shapeCast S1600000 (extractStridedSlice S1x1600000 ![0, 0] a1 Facts.slices_S2x1600000_S1x1600000_0_0) Facts.shapeCasts_S1x1600000_S1600000

/-- Under the precondition every destination node number is at least zero (as a signed 32-bit integer). -/
theorem dst_nonneg {F : FTy → Type} [FloatOps F] (a0 : FVec F S100000x128 .f32) (a1 : IVec S2x1600000 32)
    (a2 : FVec F S1600000 .f32) (a3 : FVec F S128x128 .f32) (a4 : FVec F S128 .f32)
    (h : fn (F := F) a0 a1 a2 a3 a4 = fun _ => 1#1) (e : S1600000.Idx) : 0 ≤ (dst a1 e).toInt := by
  have h0 := congrFun h ValueIdx.ix0
  unfold fn fn_part1 at h0
  dsimp only at h0
  obtain ⟨-, h23⟩ := IntOp.andi_eq_one.mp h0
  have he := Host.reduce_andi_all _ _ _ _ _ h23 e
  have h1 := IntOp.cmpi_sge.mp he
  have hz : (0#32 : BitVec 32).toInt = 0 := by decide
  exact hz ▸ h1

end Cert.Pre_finite_inputs.Decode

end
-- ==== Proof.lean ====
/-
  The kernel against its reference: one graph-convolution layer.

  Both programs gather the source node's row for every edge, scale it by the edge's weight, sum the scaled rows at each
  destination node, add the node table, and apply a dense layer (the transposed weights, a bias, a leaky rectifier).
  They differ in how the sums meet the node table — the reference adds the table to sums started from zero, the kernel
  scatters the sums into the table after re-counting negative destination numbers from the table's end — and in
  where the dense layer runs (on the host as one product, or in a kernel over twenty blocks of 5000 rows).  Under the
  precondition (finite floats, and no negative destination number) the two results are equal entry by entry on the
  extended reals: the re-counting does nothing, "table + (0 + sum)" is "table + sum", and a row block of the product is
  the product of the row block.

  The three frames: the two kernels' are the generated ones; the reference's is its run with the result dropped.
  Nothing was rewritten between the kernel and its idealization, so that conjunct is trivial.
-/
import proofs.«102477_j19670950216024_2_alg».proof.Defs
import proofs.«102477_j19670950216024_2_alg».proof.Proof.Gen.Kernel
import proofs.«102477_j19670950216024_2_alg».proof.Proof.Gen.Kernel.Skeleton
import proofs.«102477_j19670950216024_2_alg».proof.Proof.Gen.Kernel.Launch
import proofs.«102477_j19670950216024_2_alg».proof.Proof.Gen.Kernel.Points
import proofs.«102477_j19670950216024_2_alg».proof.Proof.Gen.Kernel.Frame
import proofs.«102477_j19670950216024_2_alg».proof.Proof.Gen.KernelIdeal
import proofs.«102477_j19670950216024_2_alg».proof.Proof.Gen.KernelIdeal.Skeleton
import proofs.«102477_j19670950216024_2_alg».proof.Proof.Gen.KernelIdeal.Launch
import proofs.«102477_j19670950216024_2_alg».proof.Proof.Gen.KernelIdeal.Points
import proofs.«102477_j19670950216024_2_alg».proof.Proof.Gen.KernelIdeal.Frame
import proofs.«102477_j19670950216024_2_alg».proof.Proof.Gen.KernelIdeal.Value
import proofs.«102477_j19670950216024_2_alg».proof.Proof.Gen.ReferenceIdeal
import proofs.«102477_j19670950216024_2_alg».proof.Proof.Gen.Pre_finite_inputs
import proofs.«102477_j19670950216024_2_alg».proof.Proof.RefRun
import proofs.«102477_j19670950216024_2_alg».proof.Proof.KernelResult
import proofs.«102477_j19670950216024_2_alg».proof.Proof.Aggregate
import proofs.«102477_j19670950216024_2_alg».proof.Proof.PreDecode
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.HostRun.run (F := Ideal) m ρ)

/-- Under the precondition no destination node number in the kernel's edge table is negative. -/
theorem dst_nonneg (m : (ℓ : Loc Cert.KernelIdeal.nD Cert.KernelIdeal.τ Cert.KernelIdeal.sig) → Buf (Elt Ideal) ℓ)
    (hpre : Cert.Pre_KernelIdeal m) (c : Dev Cert.KernelIdeal.nD) (e : Cert.KernelIdeal.S1600000.Idx) :
    0 ≤ (Cert.KernelIdeal.HostPrefix.dst
      (m ((c.tc : Thread Cert.KernelIdeal.nD Cert.KernelIdeal.τ).loc Cert.KernelIdeal.main_arg1)) e).toInt :=
  Cert.Pre_finite_inputs.Decode.dst_nonneg _ _ _ _ _ (hpre c) e

/-- From memories agreeing on the arguments both programs end with the same result array: the dense layer of the node
    table with the messages summed into it. -/
theorem algebraic : Cert.algebraic_KernelIdeal_ReferenceIdeal := by
  intro m ρ m' ρ' hpre hagree
  refine ⟨_, Cert.KernelIdeal.Result.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2.1, (hagree c).2.2.1, (hagree c).2.2.2.1, (hagree c).2.2.2.2]
  exact (Cert.Aggregate.dense_eq_result _ _ _ _ _ (dst_nonneg m hpre c)).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
